-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel

variable [Facts]

def fn {F : FTy → Type} [FloatOps F] (main_arg0 : FVec F S32x2048 .f32) (main_arg1 : FVec F S32x2048 .f32) : IVec S_ 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_c : IVec S_ 1 := constantI S_ 1 1#1
  let main_v3 : IVec S_ 1 := (fun x v => Host.reduce IntOp.andi x v reducesTo_S32x2048_S_d0_1 h_S_) main_v2 main_c
  let main_v4 : FVec F S32x2048 .f32 := Host.absf main_arg1
  let main_cst_0 : FVec F S_ .f32 := constant S_ .f32 0x7F800000#32
  let main_v5 : FVec F S32x2048 .f32 := broadcastInDim S32x2048 ![] bcast_S_S32x2048 main_cst_0
  let main_v6 : IVec S32x2048 1 := cmpf .olt main_v4 main_v5
  let main_c_1 : IVec S_ 1 := constantI S_ 1 1#1
  let main_v7 : IVec S_ 1 := (fun x v => Host.reduce IntOp.andi x v reducesTo_S32x2048_S_d0_1 h_S_) main_v6 main_c_1
  let main_v8 : IVec S_ 1 := andi main_v3 main_v7
  main_v8
-- ==== Kernel.lean ====
abbrev S32x2048 : Shape := ⟨2, ![32, 2048]⟩
abbrev S1x1 : Shape := ⟨2, ![1, 1]⟩
abbrev S32x1024 : Shape := ⟨2, ![32, 1024]⟩
abbrev S32 : Shape := ⟨1, ![32]⟩
abbrev S32x1 : Shape := ⟨2, ![32, 1]⟩
abbrev S1 : Shape := ⟨1, ![1]⟩
abbrev S1024 : Shape := ⟨1, ![1024]⟩
abbrev S1x1024 : Shape := ⟨2, ![1, 1024]⟩
abbrev S_ : Shape := ⟨0, ![]⟩

abbrev nBuf : Space → Nat
  | .hbm => 4
  | .vmem => 3
  | .smem => 0
  | _ => 0

abbrev bufTy : (tb : Table) → Fin (tcTables nBuf tb) → BufTy
  | .hbm, ⟨0, _⟩ => ⟨S32x2048, .f32⟩
  | .hbm, ⟨1, _⟩ => ⟨S32x2048, .f32⟩
  | .hbm, ⟨2, _⟩ => ⟨S1x1, .f32⟩
  | .hbm, ⟨3, _⟩ => ⟨S_, .f32⟩
  | .local _ .vmem, ⟨0, _⟩ => ⟨S32x2048, .f32⟩
  | .local _ .vmem, ⟨1, _⟩ => ⟨S32x2048, .f32⟩
  | .local _ .vmem, ⟨2, _⟩ => ⟨S1x1, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S32x2048_S32x2048_0_0 : ∀ a, (![0, 0] : Fin 2 → Nat) a + S32x2048.size a ≤ S32x2048.size a
  h_S32x2048 : 0 < S32x2048.numel
  slices_S32x2048_o0_0_S32x1024 : S32x2048.Slices ![0, 0] S32x1024
  slices_S32x2048_o0_1024_S32x1024 : S32x2048.Slices ![0, 1024] S32x1024
  reduces_S32x1024_S32 : S32x1024.Reduces [1] S32
  shapeCasts_S32_S32x1 : S32.ShapeCasts S32x1
  reduces_S32x1_S1 : S32x1.Reduces [0] S1
  shapeCasts_S1_S1x1 : S1.ShapeCasts S1x1
  broadcasts_S32x1_S32x1024 : S32x1.Broadcasts S32x1024
  reduces_S32x1024_S1024 : S32x1024.Reduces [0] S1024
  shapeCasts_S1024_S1x1024 : S1024.ShapeCasts S1x1024
  broadcasts_S1x1_S1x1024 : S1x1.Broadcasts S1x1024
  reduces_S1x1024_S1 : S1x1024.Reduces [1] S1
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x2048.size a ≤ S32x2048.size a
  hwx0_0 : ∀ i : grid0.Coords, EltTy.bits .f32 = 32 ∨ (Rect.block (s := S32x2048) S32x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x2048.size a ≤ S32x2048.size a
  hwx0_1 : ∀ i : grid0.Coords, EltTy.bits .f32 = 32 ∨ (Rect.block (s := S32x2048) S32x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S32x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x2048 : Shape := ⟨2, ![32, 2048]⟩
abbrev S32x1024 : Shape := ⟨2, ![32, 1024]⟩
abbrev S32x1x1024 : Shape := ⟨3, ![32, 1, 1024]⟩
abbrev S32x1024x1 : Shape := ⟨3, ![32, 1024, 1]⟩
abbrev S32x1024x1024 : Shape := ⟨3, ![32, 1024, 1024]⟩
abbrev S_ : Shape := ⟨0, ![]⟩
abbrev S1024 : Shape := ⟨1, ![1024]⟩

abbrev nBuf : Space → Nat
  | .hbm => 30
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S32x2048, .f32⟩
  | .hbm, ⟨2, _⟩ => ⟨S32x2048, .f32⟩
  | .hbm, ⟨3, _⟩ => ⟨S32x1024, .f32⟩
  | .hbm, ⟨4, _⟩ => ⟨S32x1024, .f32⟩
  | .hbm, ⟨5, _⟩ => ⟨S32x1x1024, .f32⟩
  | .hbm, ⟨6, _⟩ => ⟨S32x1024x1, .f32⟩
  | .hbm, ⟨7, _⟩ => ⟨S32x1024x1024, .f32⟩
  | .hbm, ⟨8, _⟩ => ⟨S32x1024x1024, .f32⟩
  | .hbm, ⟨9, _⟩ => ⟨S32x1024x1024, .f32⟩
  | .hbm, ⟨10, _⟩ => ⟨S32x1024x1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S_, .f32⟩
  | .hbm, ⟨16, _⟩ => ⟨S32x1x1024, .f32⟩
  | .hbm, ⟨17, _⟩ => ⟨S32x1024x1, .f32⟩
  | .hbm, ⟨18, _⟩ => ⟨S32x1024x1024, .f32⟩
  | .hbm, ⟨19, _⟩ => ⟨S32x1024x1024, .f32⟩
  | .hbm, ⟨20, _⟩ => ⟨S32x1024x1024, .f32⟩
  | .hbm, ⟨21, _⟩ => ⟨S32x1024x1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  slices_S32x2048_S32x1024_0_0 : S32x2048.Slices ![0, 0] S32x1024
  slices_S32x2048_S32x1024_0_1024 : S32x2048.Slices ![0, 1024] S32x1024
  bcast_S32x1024_S32x1x1024_0_2 : S32x1024.BroadcastsInDim S32x1x1024 (![0, 2] : Fin 2 → Fin S32x1x1024.rank)
  bcast_S32x1024_S32x1024x1_0_1 : S32x1024.BroadcastsInDim S32x1024x1 (![0, 1] : Fin 2 → Fin S32x1024x1.rank)
  bcast_S32x1x1024_S32x1024x1024_0_1_2 : S32x1x1024.BroadcastsInDim S32x1024x1024 (![0, 1, 2] : Fin 3 → Fin S32x1024x1024.rank)
  bcast_S32x1024x1_S32x1024x1024_0_1_2 : S32x1024x1.BroadcastsInDim S32x1024x1024 (![0, 1, 2] : Fin 3 → Fin S32x1024x1024.rank)
  reducesTo_S32x1024x1024_S1024_d0_2 : S32x1024x1024.ReducesTo [0, 2] S1024
  h_S_ : 0 < S_.numel
  reducesTo_S1024_S_d0 : S1024.ReducesTo [0] S_

variable [Facts₀]

class Facts : Prop extends Facts₀ where

variable [Facts]
-- ==== Proof.PairwiseAlgebra.lean ====
/-
  The sum of squared differences to an anchor, expanded.

  For a real array `r` with `a` rows of length `n` and an anchor column `i`, the sum over every entry of the squared
  difference to the anchor's entry of the same row is
      ∑_b ∑_j (r b j − r b i)² = ∑_b ∑_j r b j² − 2 · ∑_b (∑_j r b j) · r b i + n · ∑_b r b i²,
  by expanding each square and collecting the three sums. The left side is a sum of squares, so the right side is
  never negative and taking its maximum with zero changes nothing. On extended reals the expansion needs the
  entries to be real: it distributes a product over a sum and cancels nothing infinite.
-/
import Idealize.ShloMosaic.PureOps.Ideal
import Idealize.ShloMosaic.Lib.ValueIdx

noncomputable section

namespace Cert.PairwiseAlgebra

open Idealize.ShloMosaic Idealize.ShloMosaic.ValueIdx

/-- The coercion of the reals into the extended reals commutes with finite sums. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The expansion over the reals. -/
theorem expand_real {a n : ℕ} (r : Fin a → Fin n → ℝ) (i : Fin n) :
    ∑ b, ∑ j, (r b j - r b i) * (r b j - r b i)
      = ((∑ b, ∑ j, r b j * r b j) - 2 * ∑ b, (∑ j, r b j) * r b i) + (n : ℝ) * ∑ b, r b i * r b i := by
  have row : ∀ b, ∑ j, (r b j - r b i) * (r b j - r b i)
      = (∑ j, r b j * r b j) - 2 * ((∑ j, r b j) * r b i) + (n : ℝ) * (r b i * r b i) := by
    intro b
    have h1 : ∀ j, (r b j - r b i) * (r b j - r b i) = r b j * r b j - 2 * (r b j * r b i) + r b i * r b i :=
      fun j => by ring
    simp only [h1, Finset.sum_add_distrib, Finset.sum_sub_distrib, ← Finset.mul_sum, ← Finset.sum_mul,
      Finset.sum_const, Finset.card_univ, Fintype.card_fin, nsmul_eq_mul]
    ring
  simp only [row, Finset.sum_add_distrib, Finset.sum_sub_distrib, ← Finset.mul_sum]

/-- The sum of squared differences is not negative. -/
theorem pairwise_nonneg {a n : ℕ} (r : Fin a → Fin n → ℝ) (i : Fin n) :
    0 ≤ ∑ b, ∑ j, (r b j - r b i) * (r b j - r b i) :=
  Finset.sum_nonneg fun _ _ => Finset.sum_nonneg fun _ _ => mul_self_nonneg _

/-- The anchor's sum of squared differences as the reference takes it: entry by entry, from an initial value. -/
def pairwise {a n : ℕ} (z : EReal) (w : Fin a → Fin n → EReal) (i : Fin n) : EReal :=
  z + ∑ b, ∑ j, (w b j - w b i) * (w b j - w b i)

/-- The same quantity as the kernel takes it: three sums combined, then floored at zero. -/
def expanded {a n : ℕ} (two big zero : EReal) (w : Fin a → Fin n → EReal) (i : Fin n) : EReal :=
  max (((∑ b, ∑ j, w b j * w b j) - two * ∑ b, (∑ j, w b j) * w b i) + big * ∑ b, w b i * w b i) zero

/-- On real entries the two agree, when the constants denote `2`, the row length and `0`. -/
theorem expanded_eq_pairwise {a n : ℕ} (r : Fin a → Fin n → ℝ) (i : Fin n) (two big zero z : EReal)
    (h2 : two = ((2 : ℝ) : EReal)) (hb : big = ((n : ℝ) : EReal)) (hz : zero = 0) (hz' : z = 0) :
    expanded two big zero (fun b j => (r b j : EReal)) i = pairwise z (fun b j => (r b j : EReal)) i := by
  subst h2 hb hz hz'
  unfold expanded pairwise
  simp only [← EReal.coe_mul, ← EReal.coe_sub, ← coe_sum, ← EReal.coe_add]
  rw [zero_add, ← expand_real r i]
  exact max_eq_left (EReal.coe_nonneg.mpr (pairwise_nonneg r i))

/-- One half's contribution, reference form: from an initial value, the sum over the anchors of the root. -/
def refHalf {a n : ℕ} (z : EReal) (w : Fin a → Fin n → EReal) : EReal :=
  z + ∑ i, Ideal.sqrt (pairwise z w i)

/-- One half's contribution, kernel form. -/
def kerHalf {a n : ℕ} (two big zero : EReal) (w : Fin a → Fin n → EReal) : EReal :=
  ∑ i, Ideal.sqrt (expanded two big zero w i)

theorem kerHalf_eq_refHalf {a n : ℕ} (r : Fin a → Fin n → ℝ) (two big zero z : EReal)
    (h2 : two = ((2 : ℝ) : EReal)) (hb : big = ((n : ℝ) : EReal)) (hz : zero = 0) (hz' : z = 0) :
    kerHalf two big zero (fun b j => (r b j : EReal)) = refHalf z (fun b j => (r b j : EReal)) := by
  unfold kerHalf refHalf
  rw [hz', zero_add]
  exact Finset.sum_congr rfl fun i _ => by rw [expanded_eq_pairwise r i two big zero 0 h2 hb hz rfl]

/-! ## The two halves of a row, and the loss -/

/-- Column `j` of a row's first half, and of its second half, in the row of length 2048. -/
def lo (j : Fin 1024) : Fin 2048 := ⟨j.val, by omega⟩
def hi (j : Fin 1024) : Fin 2048 := ⟨1024 + j.val, by omega⟩

/-- One half (chosen by `e`) of the difference of the two input arrays. -/
def halfDiff (e : Fin 1024 → Fin 2048) (x0 x1 : (⟨2, ![32, 2048]⟩ : Shape).Idx → EReal) : Fin 32 → Fin 1024 → EReal :=
  fun b j => x0 (ix2 b (e j)) - x1 (ix2 b (e j))

/-- The loss as the kernel computes it: both halves' sums of roots, added and divided. -/
def kernelLoss (two big zero c : EReal) (x0 x1 : (⟨2, ![32, 2048]⟩ : Shape).Idx → EReal) : EReal :=
  Ideal.div (kerHalf two big zero (halfDiff lo x0 x1) + kerHalf two big zero (halfDiff hi x0 x1)) c

/-- The loss as the reference computes it. -/
def refLoss (z c : EReal) (x0 x1 : (⟨2, ![32, 2048]⟩ : Shape).Idx → EReal) : EReal :=
  Ideal.div (refHalf z (halfDiff lo x0 x1) + refHalf z (halfDiff hi x0 x1)) c

/-- A half of the difference of two real arrays is real. -/
theorem halfDiff_real (e : Fin 1024 → Fin 2048) (x0 x1 : (⟨2, ![32, 2048]⟩ : Shape).Idx → EReal)
    (r0 r1 : (⟨2, ![32, 2048]⟩ : Shape).Idx → ℝ) (h0 : ∀ i, x0 i = (r0 i : EReal)) (h1 : ∀ i, x1 i = (r1 i : EReal)) :
    halfDiff e x0 x1 = fun b j => ((r0 (ix2 b (e j)) - r1 (ix2 b (e j)) : ℝ) : EReal) := by
  funext b j
  unfold halfDiff
  rw [h0, h1, EReal.coe_sub]

/-- On real inputs the two forms of the loss agree. -/
theorem kernelLoss_eq_refLoss (x0 x1 : (⟨2, ![32, 2048]⟩ : Shape).Idx → EReal)
    (h0 : ∀ i, ∃ r : ℝ, x0 i = (r : EReal)) (h1 : ∀ i, ∃ r : ℝ, x1 i = (r : EReal)) (two big zero z c : EReal)
    (h2 : two = ((2 : ℝ) : EReal)) (hb : big = (((1024 : ℕ) : ℝ) : EReal)) (hz : zero = 0) (hz' : z = 0) :
    kernelLoss two big zero c x0 x1 = refLoss z c x0 x1 := by
  choose r0 hr0 using h0
  choose r1 hr1 using h1
  unfold kernelLoss refLoss
  rw [halfDiff_real lo x0 x1 r0 r1 hr0 hr1, halfDiff_real hi x0 x1 r0 r1 hr0 hr1,
    kerHalf_eq_refHalf _ two big zero z h2 hb hz hz', kerHalf_eq_refHalf _ two big zero z h2 hb hz hz']

/-! ## The constants -/

/-- The words of `0.0`, `2.0` and `1024.0`. -/
theorem ofBits_zero : Ideal.ofBits .f32 0x00000000#32 = 0 := by
  simp [Ideal.ofBits, Ideal.ieee]
theorem ofBits_two : Ideal.ofBits .f32 0x40000000#32 = ((2 : ℝ) : EReal) := by
  simp [Ideal.ofBits, Ideal.ieee, -EReal.coe_mul]; norm_num
theorem ofBits_1024 : Ideal.ofBits .f32 0x44800000#32 = (((1024 : ℕ) : ℝ) : EReal) := by
  simp [Ideal.ofBits, Ideal.ieee, -EReal.coe_mul]; norm_num

end Cert.PairwiseAlgebra

end
-- ==== Proof.FiniteEntries.lean ====
/-
  Every entry of a finite input is a real number.

  The precondition says of each input array that the absolute value of every entry is below the word of plus
  infinity, all entries together (a conjunction over the whole array), and that both arrays pass. On the extended
  reals an element whose absolute value `max x (−x)` is below `⊤` is neither `⊤` nor `⊥`, so it is a real.
-/
import proofs.«162792_j47278999994715_2_alg».proof.Pre_finite_inputs
import Idealize.ShloMosaic.PureOps.Ideal
import Idealize.ShloMosaic.PureOps.Ideal.Laws
import Idealize.ShloMosaic.Lib.ReduceAll
import Idealize.ShloMosaic.Lib.ValueIdx

namespace Cert.FiniteEntries

open Idealize.ShloMosaic Idealize.ShloMosaic.ValueIdx Cert.Pre_finite_inputs

/-- A rank-0 array has one index. -/
instance : Subsingleton S_.Idx := ⟨fun _ _ => funext fun d => d.elim0⟩

/-- The word `0x7F800000` denotes plus infinity. -/
theorem ofBits_top : Ideal.ofBits .f32 0x7F800000#32 = ⊤ := by
  simp [Ideal.ofBits, Ideal.ieee]

/-- An extended real whose absolute value compares below plus infinity is a real. -/
theorem real_of_cmp (x : EReal) (h : Ideal.cmp .olt (max x (-x)) (Ideal.ofBits .f32 0x7F800000#32) = 1#1) :
    ∃ r : ℝ, x = (r : EReal) := by
  rw [ofBits_top] at h
  induction x using EReal.rec with
  | bot => simp [Ideal.cmp] at h
  | top => simp [Ideal.cmp] at h
  | coe r => exact ⟨r, rfl⟩

variable [Cert.Pre_finite_inputs.Facts]

/-- Under the precondition every entry of both inputs is a real. -/
theorem real_of_pre (x0 x1 : FVec Ideal S32x2048 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ix0
  dsimp only [Cert.Pre_finite_inputs.fn] at h0
  obtain ⟨ha, hb⟩ := IntOp.andi_eq_one.1 h0
  exact ⟨fun i => real_of_cmp (x0 i) (Host.reduce_andi_all _ _ _ _ _ ha i),
    fun i => real_of_cmp (x1 i) (Host.reduce_andi_all _ _ _ _ _ hb i)⟩

end Cert.FiniteEntries
-- ==== Proof.LibAxisSums.lean ====
/-
  Sums of an array along its outer axes, read at an index.

  Reducing a matrix `[a, b]` along its first axis gives a vector `[b]` whose entry `j` is the sum of column `j`:
  the `a` entries `(k, j)`. Reducing a rank-3 array `[a, b, c]` along its first and last axes together gives a
  vector `[b]` whose entry `i` is the sum of the slab with middle coordinate `i`: the `a · c` entries `(p, i, q)`,
  added to the initial value. Every index is written by its coordinates.
-/
import Idealize.ShloMosaic.PureOps.Ideal.Laws
import Idealize.ShloMosaic.Lib.ValueIdx

namespace Cert.AxisSums

open Idealize.ShloMosaic Idealize.ShloMosaic.ValueIdx

/-- The index of the matrix that reduces to `j` along the first axis and has `k` there is `(k, j)`. -/
theorem lift_cols {a b : ℕ} (h : (⟨2, ![a, b]⟩ : Shape).Reduces [0] ⟨1, ![b]⟩) (j : Fin b)
    (k : Fin ((⟨2, ![a, b]⟩ : Shape).size 0)) : h.lift (ix1 j) k = ix2 (⟨k.val, k.isLt⟩ : Fin a) j := by
  funext d; apply Fin.ext
  match d with
  | ⟨0, _⟩ => rfl
  | ⟨1, _⟩ => rfl

/-- A float sum down the columns of a matrix, from the zero word, at `j`: the sum of column `j`. -/
theorem multiReduction_add_cols {a b : ℕ} (src : FVec Ideal ⟨2, ![a, b]⟩ .f32)
    (h : (⟨2, ![a, b]⟩ : Shape).Reduces [0] ⟨1, ![b]⟩) (j : Fin b) :
    multiReduction .add [0] ⟨1, ![b]⟩ src 0x00000000#32 h (.inl rfl) rfl (ix1 j) = ∑ k : Fin a, src (ix2 k j) :=
  (Ideal.multiReduction_add_single src 0x00000000#32 h (.inl rfl) rfl (ix1 j)).trans
    (Finset.sum_congr rfl fun k _ => congrArg src (lift_cols h j k))

/-- The indices of a rank-3 array are the triples of its coordinates. -/
def idxEquiv3 {a b c : ℕ} : (⟨3, ![a, b, c]⟩ : Shape).Idx ≃ Fin a × Fin b × Fin c where
  toFun j := (j 0, j 1, j 2)
  invFun p := ix3 p.1 p.2.1 p.2.2
  left_inv j := (eq_ix3 j).symm
  right_inv _ := rfl

/-- A sum over all indices of a rank-3 array, coordinate by coordinate. -/
theorem sum_idx3 {M : Type*} [AddCommMonoid M] {a b c : ℕ} (f : (⟨3, ![a, b, c]⟩ : Shape).Idx → M) :
    ∑ j, f j = ∑ p : Fin a, ∑ i : Fin b, ∑ q : Fin c, f (ix3 p i q) := by
  rw [← Equiv.sum_comp (idxEquiv3 (a := a) (b := b) (c := c)).symm f, Fintype.sum_prod_type]
  exact Finset.sum_congr rfl fun p _ => Fintype.sum_prod_type _

/-- An index of `[a, b, c]` reduces, along the first and last axes, to its middle coordinate. -/
theorem drop_outer {a b c : ℕ} (h : (⟨3, ![a, b, c]⟩ : Shape).ReducesTo [0, 2] ⟨1, ![b]⟩)
    (p : Fin a) (i : Fin b) (q : Fin c) : h.drop (ix3 p i q) = ix1 i := by
  funext d; apply Fin.ext
  match d with
  | ⟨0, _⟩ => rfl

/-- The host's sum of `[a, b, c]` along its first and last axes, at `i`: the initial value plus the sum of the
    slab `(·, i, ·)`. -/
theorem hostReduceAdd_outer {a b c : ℕ} (h : (⟨3, ![a, b, c]⟩ : Shape).ReducesTo [0, 2] ⟨1, ![b]⟩)
    (x : (⟨3, ![a, b, c]⟩ : Shape).Idx → EReal) (init : EReal) (i : Fin b) :
    Ideal.hostReduceAdd h x init (ix1 i) = init + ∑ p : Fin a, ∑ q : Fin c, x (ix3 p i q) := by
  unfold Ideal.hostReduceAdd
  congr 1
  rw [Finset.sum_filter, sum_idx3]
  refine Finset.sum_congr rfl fun p _ => ?_
  rw [Finset.sum_comm]
  refine Finset.sum_congr rfl fun q _ => ?_
  have hd : ∀ i' : Fin b, (h.drop (ix3 p i' q) = ix1 i) ↔ i' = i := fun i' => by
    rw [drop_outer h p i' q]
    constructor
    · intro e; exact congrFun e 0
    · rintro rfl; rfl
  simp only [hd, Finset.sum_ite_eq', Finset.mem_univ, if_true]

end Cert.AxisSums
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibColumnSum.lean ====
/-
  The sum of a column read at an index.

  Reducing a column `[a, 1]` along its first axis gives a vector `[1]` whose one entry is the sum of the column's
  `a` entries. The index is written by its coordinates.
-/
import Idealize.ShloMosaic.PureOps.Ideal.Laws
import Idealize.ShloMosaic.Lib.ValueIdx

namespace Cert.ColumnSum

open Idealize.ShloMosaic Idealize.ShloMosaic.ValueIdx

/-- The index of the column that reduces to `u` along the first axis and has `k` there is `(k, u)`. -/
theorem lift_col {a : ℕ} (h : (⟨2, ![a, 1]⟩ : Shape).Reduces [0] ⟨1, ![1]⟩) (u : Fin 1)
    (k : Fin ((⟨2, ![a, 1]⟩ : Shape).size 0)) : h.lift (ix1 u) k = ix2 (⟨k.val, k.isLt⟩ : Fin a) u := by
  funext d; apply Fin.ext
  match d with
  | ⟨0, _⟩ => rfl
  | ⟨1, _⟩ => rfl

/-- A float sum down a column, from the zero word: the sum of the column's entries. -/
theorem multiReduction_add_col {a : ℕ} (src : FVec Ideal ⟨2, ![a, 1]⟩ .f32)
    (h : (⟨2, ![a, 1]⟩ : Shape).Reduces [0] ⟨1, ![1]⟩) (u : Fin 1) :
    multiReduction .add [0] ⟨1, ![1]⟩ src 0x00000000#32 h (.inl rfl) rfl (ix1 u) = ∑ k : Fin a, src (ix2 k u) :=
  (Ideal.multiReduction_add_single src 0x00000000#32 h (.inl rfl) rfl (ix1 u)).trans
    (Finset.sum_congr rfl fun k _ => congrArg src (lift_col h u k))

end Cert.ColumnSum
-- ==== Proof.BodyValue.lean ====
/-
  The kernel's body, read entry by entry.

  The body takes the difference `d` of its two input blocks, cuts it into a left and a right half `v` (each 32 rows
  of 1024), and for each half computes four things: the total `∑_b ∑_j v(b,j)²` (row sums of the squares laid out as
  a column, the column summed); for every column `i` the cross term `∑_b (∑_j v(b,j)) · v(b,i)` (the row sums as a
  column copied along the rows, times `v`, summed down the columns) and the square term `∑_b v(b,i)²`; and from
  these the sum over `i` of the root of `max((total − 2·cross_i) + 1024·square_i, 0)`. The two halves' sums are
  added and divided by 64. Below, each of the four is named as a function of a half, the body's payloads are shown
  to be these functions, and each function is read at an index at the ideal values.
-/
import proofs.«162792_j47278999994715_2_alg».proof.Proof.Gen.KernelIdeal.Skeleton
import proofs.«162792_j47278999994715_2_alg».proof.Proof.PairwiseAlgebra
import proofs.«162792_j47278999994715_2_alg».proof.Proof.LibAxisSums
import proofs.«162792_j47278999994715_2_alg».proof.Proof.LibRowForms
import proofs.«162792_j47278999994715_2_alg».proof.Proof.LibColumnForms
import proofs.«162792_j47278999994715_2_alg».proof.Proof.LibColumnSum
import Idealize.ShloMosaic.Lib.ValueIdx
import Idealize.ShloMosaic.Lib.ValueLayout
import Idealize.ShloMosaic.PureOps.Ideal.Laws

noncomputable section

namespace Cert.KernelIdeal.BodyValue

open Cert.KernelIdeal Cert.KernelIdeal.Gen Idealize.ShloMosaic Idealize.ShloMosaic.ValueIdx Cert.PairwiseAlgebra

variable {F : FTy → Type} [FloatOps F]

/-! ## The four pieces as functions of a half -/

/-- The total of the squares of a half's entries, as a `[1, 1]` block. -/
def sqTotal (v : FVec F S32x1024 .f32) : FVec F S1x1 .f32 :=
  shapeCast S1x1 (multiReduction .add [0] S1 (shapeCast S32x1 (multiReduction .add [1] S32 (mulf v v) 0x00000000#32
    reduces_S32x1024_S32 (.inl rfl) rfl) shapeCasts_S32_S32x1) 0x00000000#32 reduces_S32x1_S1 (.inl rfl) rfl) shapeCasts_S1_S1x1

/-- Per column, the sum down the rows of (the row's sum) times (the row's entry in that column). -/
def crossRow (v : FVec F S32x1024 .f32) : FVec F S1x1024 .f32 :=
  shapeCast S1x1024 (multiReduction .add [0] S1024 (mulf (broadcastTo S32x1024 (shapeCast S32x1 (multiReduction .add [1] S32 v
    0x00000000#32 reduces_S32x1024_S32 (.inl rfl) rfl) shapeCasts_S32_S32x1) broadcasts_S32x1_S32x1024) v) 0x00000000#32
    reduces_S32x1024_S1024 (.inl rfl) rfl) shapeCasts_S1024_S1x1024

/-- Per column, the sum down the rows of the squares. -/
def sqRow (v : FVec F S32x1024 .f32) : FVec F S1x1024 .f32 :=
  shapeCast S1x1024 (multiReduction .add [0] S1024 (mulf v v) 0x00000000#32 reduces_S32x1024_S1024 (.inl rfl) rfl)
    shapeCasts_S1024_S1x1024

/-- From the three: the sum over the columns of the root of the floored combination. -/
def rootSum (sv : FVec F S1x1 .f32) (a c : FVec F S1x1024 .f32) : FVec F S1x1 .f32 :=
  shapeCast S1x1 (multiReduction .add [1] S1 (sqrt (maximumf (addf (subf (broadcastTo S1x1024 sv broadcasts_S1x1_S1x1024)
    (mulf (broadcast S1x1024 (Scalar.ofBits .f32 0x40000000#32)) a)) (mulf (broadcast S1x1024 (Scalar.ofBits .f32 0x44800000#32)) c))
    (broadcast S1x1024 (Scalar.ofBits .f32 0x00000000#32)))) 0x00000000#32 reduces_S1x1024_S1 (.inl rfl) rfl) shapeCasts_S1_S1x1

/-- One half's contribution. -/
def halfRoot (v : FVec F S32x1024 .f32) : FVec F S1x1 .f32 := rootSum (sqTotal v) (crossRow v) (sqRow v)

/-! ## The body's payloads are these functions -/

/-- The stored value, of the two loaded blocks: the halves of their difference through `halfRoot`, added, over 64. -/
theorem body_eq (x0 x1 : Vec F S32x2048 .f32) :
    k0_pay1 (k0_pay4 x0 x1) (k0_pay5 x0 x1) (k0_pay6 x0 x1) (k0_pay7 x0 x1)
      = divf (addf (halfRoot (extractStridedSlice S32x1024 ![0, 0] (subf x0 x1) slices_S32x2048_o0_0_S32x1024))
          (halfRoot (extractStridedSlice S32x1024 ![0, 1024] (subf x0 x1) slices_S32x2048_o0_1024_S32x1024)))
        (broadcast S1x1 (Scalar.ofBits .f32 0x42800000#32)) := rfl

/-! ## Each piece at an index, at the ideal values -/

theorem sqTotal_apply (v : FVec Ideal S32x1024 .f32) :
    sqTotal v (ix2 (0 : Fin 1) (0 : Fin 1)) = ∑ b : Fin 32, ∑ j : Fin 1024, v (ix2 b j) * v (ix2 b j) := by
  unfold sqTotal
  refine (shapeCast_a_1a_apply _ _ (0 : Fin 1) (0 : Fin 1)).trans ?_
  refine (Cert.ColumnSum.multiReduction_add_col _ _ (0 : Fin 1)).trans ?_
  refine Finset.sum_congr rfl fun b _ => ?_
  refine (Cert.ColumnForms.shapeCast_a_a1_apply _ _ b (0 : Fin 1)).trans ?_
  exact Cert.RowForms.multiReduction_add_rows _ _ b

theorem crossRow_apply (v : FVec Ideal S32x1024 .f32) (i : Fin 1024) :
    crossRow v (ix2 (0 : Fin 1) i) = ∑ b : Fin 32, (∑ j : Fin 1024, v (ix2 b j)) * v (ix2 b i) := by
  unfold crossRow
  refine (shapeCast_a_1a_apply _ _ (0 : Fin 1) i).trans ?_
  refine (Cert.AxisSums.multiReduction_add_cols _ _ i).trans ?_
  refine Finset.sum_congr rfl fun b _ => ?_
  rw [mulf_apply, Cert.ColumnForms.broadcastTo_a1_ab_apply, Cert.ColumnForms.shapeCast_a_a1_apply,
    Cert.RowForms.multiReduction_add_rows]

theorem sqRow_apply (v : FVec Ideal S32x1024 .f32) (i : Fin 1024) :
    sqRow v (ix2 (0 : Fin 1) i) = ∑ b : Fin 32, v (ix2 b i) * v (ix2 b i) := by
  unfold sqRow
  refine (shapeCast_a_1a_apply _ _ (0 : Fin 1) i).trans ?_
  exact Cert.AxisSums.multiReduction_add_cols _ _ i

theorem rootSum_apply (sv : FVec Ideal S1x1 .f32) (a c : FVec Ideal S1x1024 .f32) :
    rootSum sv a c (ix2 (0 : Fin 1) (0 : Fin 1))
      = ∑ i : Fin 1024, Ideal.sqrt (max ((sv (ix2 (0 : Fin 1) (0 : Fin 1)) - Ideal.ofBits .f32 0x40000000#32 * a (ix2 (0 : Fin 1) i))
          + Ideal.ofBits .f32 0x44800000#32 * c (ix2 (0 : Fin 1) i)) (Ideal.ofBits .f32 0x00000000#32)) := by
  unfold rootSum
  refine (shapeCast_a_1a_apply _ _ (0 : Fin 1) (0 : Fin 1)).trans ?_
  refine (Cert.RowForms.multiReduction_add_rows _ _ (0 : Fin 1)).trans ?_
  refine Finset.sum_congr rfl fun i _ => ?_
  show Ideal.sqrt (max ((broadcastTo S1x1024 sv broadcasts_S1x1_S1x1024 (ix2 (0 : Fin 1) i)
      - Ideal.ofBits .f32 0x40000000#32 * a (ix2 (0 : Fin 1) i)) + Ideal.ofBits .f32 0x44800000#32 * c (ix2 (0 : Fin 1) i))
      (Ideal.ofBits .f32 0x00000000#32)) = _
  rw [Cert.ColumnForms.broadcastTo_a1_ab_apply]

/-- One half's contribution is the kernel form of the algebra, on the half's entries. -/
theorem halfRoot_apply (v : FVec Ideal S32x1024 .f32) :
    halfRoot v (ix2 (0 : Fin 1) (0 : Fin 1))
      = kerHalf (Ideal.ofBits .f32 0x40000000#32) (Ideal.ofBits .f32 0x44800000#32) (Ideal.ofBits .f32 0x00000000#32)
          (fun b j => v (ix2 b j)) := by
  unfold halfRoot kerHalf expanded
  rw [rootSum_apply, sqTotal_apply]
  refine Finset.sum_congr rfl fun i _ => ?_
  rw [crossRow_apply, sqRow_apply]

/-- The left and the right half of the difference of the blocks, entry by entry. -/
theorem half_lo (x0 x1 : FVec Ideal S32x2048 .f32) :
    (fun (b : Fin 32) (j : Fin 1024) => extractStridedSlice S32x1024 ![0, 0] (subf x0 x1) slices_S32x2048_o0_0_S32x1024 (ix2 b j))
      = halfDiff lo x0 x1 :=
  funext fun b => funext fun j =>
    slice2_axis1_apply 0 (subf x0 x1) slices_S32x2048_o0_0_S32x1024 b j (lo j) (by show j.val = 0 + j.val; omega)

theorem half_hi (x0 x1 : FVec Ideal S32x2048 .f32) :
    (fun (b : Fin 32) (j : Fin 1024) => extractStridedSlice S32x1024 ![0, 1024] (subf x0 x1) slices_S32x2048_o0_1024_S32x1024 (ix2 b j))
      = halfDiff hi x0 x1 :=
  funext fun b => funext fun j =>
    slice2_axis1_apply 1024 (subf x0 x1) slices_S32x2048_o0_1024_S32x1024 b j (hi j) rfl

/-- THE BODY'S VALUE: what it stores, at its one index, is the kernel form of the loss of the two loaded blocks. -/
theorem body_apply (x0 x1 : FVec Ideal S32x2048 .f32) :
    k0_pay1 (F := Ideal) (k0_pay4 (F := Ideal) x0 x1) (k0_pay5 (F := Ideal) x0 x1) (k0_pay6 (F := Ideal) x0 x1)
        (k0_pay7 (F := Ideal) x0 x1) (ix2 (0 : Fin 1) (0 : Fin 1))
      = kernelLoss (Ideal.ofBits .f32 0x40000000#32) (Ideal.ofBits .f32 0x44800000#32) (Ideal.ofBits .f32 0x00000000#32)
          (Ideal.ofBits .f32 0x42800000#32) x0 x1 := by
  rw [body_eq]
  show Ideal.div (halfRoot (F := Ideal) _ (ix2 (0 : Fin 1) (0 : Fin 1)) + halfRoot (F := Ideal) _ (ix2 (0 : Fin 1) (0 : Fin 1)))
    (Ideal.ofBits .f32 0x42800000#32) = _
  rw [halfRoot_apply, halfRoot_apply, half_lo, half_hi]
  rfl

end Cert.KernelIdeal.BodyValue

end
-- ==== Proof.LibSumForms.lean ====
/-
  Sums over a vector's or a column's indices as sums over the coordinate.

  An index of a vector `[n]` is its one coordinate, and an index of a column `[n, 1]` is its first coordinate (the
  second can only be `0`). So a sum over all indices of either is a sum over `Fin n`, with the index written by its
  coordinates.
-/
import Idealize.ShloMosaic.Lib.ValueIdx

namespace Cert.SumForms

open Idealize.ShloMosaic Idealize.ShloMosaic.ValueIdx

/-- The indices of a vector `[n]` are its coordinates. -/
def idxEquiv1 {n : ℕ} : (⟨1, ![n]⟩ : Shape).Idx ≃ Fin n where
  toFun j := j 0
  invFun a := ix1 a
  left_inv j := (eq_ix1 j).symm
  right_inv _ := rfl

/-- A sum over the indices of a vector `[n]` is the sum over its coordinate. -/
theorem sum_idx1 {M : Type*} [AddCommMonoid M] {n : ℕ} (f : (⟨1, ![n]⟩ : Shape).Idx → M) :
    ∑ j, f j = ∑ a : Fin n, f (ix1 a) :=
  (Equiv.sum_comp (idxEquiv1 (n := n)).symm f).symm

/-- A sum over the indices of a column `[n, 1]` is the sum over its first coordinate, the second being `0`. -/
theorem sum_column {M : Type*} [AddCommMonoid M] {n : ℕ} (f : (⟨2, ![n, 1]⟩ : Shape).Idx → M) :
    ∑ j, f j = ∑ a : Fin n, f (ix2 a (0 : Fin 1)) := by
  rw [sum_idx2]
  exact Finset.sum_congr rfl fun a _ => Fin.sum_univ_one _

end Cert.SumForms
-- ==== Proof.RefValue.lean ====
/-
  The reference, read entry by entry.

  The reference takes the difference of the two input arrays, cuts it into a left and a right half `v`, and for each
  half forms the array of all differences `v(b,k) − v(b,i)` over (row `b`, anchor column `i`, column `k`), squares
  it, sums it over rows and columns into one number per anchor, takes the root, and sums over the anchors; the two
  halves' sums are added and divided by 64. Entry `(b, i, k)` of the squared array reads column `k` through the
  broadcast that inserts the anchor axis, and column `i` through the one that inserts the last axis.
-/
import proofs.«162792_j47278999994715_2_alg».proof.Proof.Gen.ReferenceIdeal.Read
import proofs.«162792_j47278999994715_2_alg».proof.Proof.PairwiseAlgebra
import proofs.«162792_j47278999994715_2_alg».proof.Proof.LibAxisSums
import proofs.«162792_j47278999994715_2_alg».proof.Proof.LibSumForms
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.PairwiseAlgebra

/-! ## Where each entry of the squared-difference arrays reads the inputs -/

theorem idx_left_col (b : Fin 32) (i k : Fin 1024) :
    idx_main_v1 (idx_main_v3 (idx_main_v5 (ix3 b i k))) = ix2 b (lo k) := by
  funext a; apply Fin.ext
  match a with
  | ⟨0, _⟩ => rfl
  | ⟨1, _⟩ => rfl

theorem idx_left_anchor (b : Fin 32) (i k : Fin 1024) :
    idx_main_v1 (idx_main_v4 (idx_main_v6 (ix3 b i k))) = ix2 b (lo i) := by
  funext a; apply Fin.ext
  match a with
  | ⟨0, _⟩ => rfl
  | ⟨1, _⟩ => rfl

theorem idx_right_col (b : Fin 32) (i k : Fin 1024) :
    idx_main_v2 (idx_main_v12 (idx_main_v14 (ix3 b i k))) = ix2 b (hi k) := by
  funext a; apply Fin.ext
  match a with
  | ⟨0, _⟩ => rfl
  | ⟨1, _⟩ => rfl

theorem idx_right_anchor (b : Fin 32) (i k : Fin 1024) :
    idx_main_v2 (idx_main_v13 (idx_main_v15 (ix3 b i k))) = ix2 b (hi i) := by
  funext a; apply Fin.ext
  match a with
  | ⟨0, _⟩ => rfl
  | ⟨1, _⟩ => rfl

/-- The left half's squared difference at (row, anchor, column). -/
theorem sq_left (x0 x1 : FVec Ideal S32x2048 .f32) (b : Fin 32) (i k : Fin 1024) :
    val_main_v8 (F := Ideal) x0 x1 (ix3 b i k)
      = (halfDiff lo x0 x1 b k - halfDiff lo x0 x1 b i) * (halfDiff lo x0 x1 b k - halfDiff lo x0 x1 b i) := by
  rw [val_main_v8_apply, val_main_v7_apply, val_main_v5_apply, val_main_v3_apply, val_main_v1_apply, val_main_v0_apply,
    val_main_v6_apply, val_main_v4_apply, val_main_v1_apply, val_main_v0_apply, idx_left_col, idx_left_anchor]
  rfl

/-- The right half's. -/
theorem sq_right (x0 x1 : FVec Ideal S32x2048 .f32) (b : Fin 32) (i k : Fin 1024) :
    val_main_v17 (F := Ideal) x0 x1 (ix3 b i k)
      = (halfDiff hi x0 x1 b k - halfDiff hi x0 x1 b i) * (halfDiff hi x0 x1 b k - halfDiff hi x0 x1 b i) := by
  rw [val_main_v17_apply, val_main_v16_apply, val_main_v14_apply, val_main_v12_apply, val_main_v2_apply, val_main_v0_apply,
    val_main_v15_apply, val_main_v13_apply, val_main_v2_apply, val_main_v0_apply, idx_right_col, idx_right_anchor]
  rfl

/-! ## The sums -/

/-- Per anchor, the left half's sum of squared differences. -/
theorem anchor_left (x0 x1 : FVec Ideal S32x2048 .f32) (i : Fin 1024) :
    val_main_v9 (F := Ideal) x0 x1 (ix1 i) = pairwise (Ideal.ofBits .f32 0x00000000#32) (halfDiff lo x0 x1) i := by
  unfold val_main_v9 pairwise
  simp only [Host.reduceAdd, Ideal.hostReduceAdd_def]
  refine (Cert.AxisSums.hostReduceAdd_outer _ _ _ i).trans ?_
  refine congrArg (Ideal.ofBits .f32 0x00000000#32 + ·) ?_
  exact Finset.sum_congr rfl fun b _ => Finset.sum_congr rfl fun k _ => sq_left x0 x1 b i k

theorem anchor_right (x0 x1 : FVec Ideal S32x2048 .f32) (i : Fin 1024) :
    val_main_v18 (F := Ideal) x0 x1 (ix1 i) = pairwise (Ideal.ofBits .f32 0x00000000#32) (halfDiff hi x0 x1) i := by
  unfold val_main_v18 pairwise
  simp only [Host.reduceAdd, Ideal.hostReduceAdd_def]
  refine (Cert.AxisSums.hostReduceAdd_outer _ _ _ i).trans ?_
  refine congrArg (Ideal.ofBits .f32 0x00000000#32 + ·) ?_
  exact Finset.sum_congr rfl fun b _ => Finset.sum_congr rfl fun k _ => sq_right x0 x1 b i k

/-- The left half's sum of roots over the anchors. -/
theorem half_left (x0 x1 : FVec Ideal S32x2048 .f32) (i : S_.Idx) :
    val_main_v11 (F := Ideal) x0 x1 i = refHalf (Ideal.ofBits .f32 0x00000000#32) (halfDiff lo x0 x1) := by
  rw [val_main_v11_apply, Cert.SumForms.sum_idx1]
  unfold refHalf
  refine congrArg (Ideal.ofBits .f32 0x00000000#32 + ·) ?_
  exact Finset.sum_congr rfl fun a _ => congrArg Ideal.sqrt (anchor_left x0 x1 a)

theorem half_right (x0 x1 : FVec Ideal S32x2048 .f32) (i : S_.Idx) :
    val_main_v20 (F := Ideal) x0 x1 i = refHalf (Ideal.ofBits .f32 0x00000000#32) (halfDiff hi x0 x1) := by
  rw [val_main_v20_apply, Cert.SumForms.sum_idx1]
  unfold refHalf
  refine congrArg (Ideal.ofBits .f32 0x00000000#32 + ·) ?_
  exact Finset.sum_congr rfl fun a _ => congrArg Ideal.sqrt (anchor_right x0 x1 a)

/-- THE REFERENCE'S VALUE: its result, at its one index, is the reference form of the loss of the two arrays. -/
theorem result_apply (x0 x1 : FVec Ideal S32x2048 .f32) (i : S_.Idx) :
    val_main_v22 (F := Ideal) x0 x1 i
      = refLoss (Ideal.ofBits .f32 0x00000000#32) (Ideal.ofBits .f32 0x42800000#32) x0 x1 := by
  rw [val_main_v22_apply, val_main_v21_apply, half_left, half_right]
  rfl

end Cert.ReferenceIdeal.RefValue

end
-- ==== Proof.KernelRun.lean ====
/-
  The kernel's run, with its result named.

  The grid has one point and every window's block is its whole array: the two inputs are read whole, and the one
  entry of the `[1, 1]` output array is what the body stores. After the region the output array is recast to a
  scalar, which is the program's result. So the result is the body's stored value, of the two input arrays whole.
-/
import proofs.«162792_j47278999994715_2_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.RunValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-- What the body leaves in the output's buffer is its stored value of the two loaded blocks. -/
theorem out_eq (x0 x1 : Vec F S32x2048 .f32) :
    out0_2 x0 x1 = k0_pay1 (k0_pay4 x0 x1) (k0_pay5 x0 x1) (k0_pay6 x0 x1) (k0_pay7 x0 x1) := by
  unfold out0_2
  rw [View.canon_unit_zero zero_offsets]
  simp only [View.ld_unit_zero (S := S32x2048) zero_offsets]

/-- Every window's block index is zero on both axes, at the grid's one point. -/
theorem block_indices : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- So an element of a block sits in its array at the same index. -/
theorem emb_in0 (t : Fin cfg0.N) (y : S32x2048.Idx) : ((cfg0.win 0).blk t).view.emb y = y := by
  obtain ⟨e0, e1, -, -, -, -⟩ := block_indices t
  funext a; apply Fin.ext
  match a with
  | ⟨0, _⟩ => show win0_0.index t (0 : Fin 2) * 32 + 1 * (y 0).val = (y 0).val; omega
  | ⟨1, _⟩ => show win0_0.index t (1 : Fin 2) * 2048 + 1 * (y 1).val = (y 1).val; omega

theorem emb_in1 (t : Fin cfg0.N) (y : S32x2048.Idx) : ((cfg0.win 1).blk t).view.emb y = y := by
  obtain ⟨-, -, e0, e1, -, -⟩ := block_indices t
  funext a; apply Fin.ext
  match a with
  | ⟨0, _⟩ => show win0_1.index t (0 : Fin 2) * 32 + 1 * (y 0).val = (y 0).val; omega
  | ⟨1, _⟩ => show win0_1.index t (1 : Fin 2) * 2048 + 1 * (y 1).val = (y 1).val; omega

theorem emb_out (t : Fin cfg0.N) (y : S1x1.Idx) : ((cfg0.win 2).blk t).view.emb y = y := by
  obtain ⟨-, -, -, -, e0, e1⟩ := block_indices t
  funext a; apply Fin.ext
  match a with
  | ⟨0, _⟩ => show win0_2.index t (0 : Fin 2) * 1 + 1 * (y 0).val = (y 0).val; omega
  | ⟨1, _⟩ => show win0_2.index t (1 : Fin 2) * 1 + 1 * (y 1).val = (y 1).val; omega

/-- The input windows' blocks are the argument arrays as the region finds them. -/
theorem block0 (c : Dev nD) (t : Fin cfg0.N) : iblk m c 0 t = V m c main_arg0 :=
  funext fun y => by
    show V m c main_arg0 (((cfg0.win 0).blk t).view.emb y) = V m c main_arg0 y
    exact congrArg (V m c main_arg0) (emb_in0 t y)

theorem block1 (c : Dev nD) (t : Fin cfg0.N) : iblk m c 1 t = V m c main_arg1 :=
  funext fun y => by
    show V m c main_arg1 (((cfg0.win 1).blk t).view.emb y) = V m c main_arg1 y
    exact congrArg (V m c main_arg1) (emb_in1 t y)

/-- What the one point writes back is the block of the stored value of the whole arrays. -/
theorem flushed_eq (c : Dev nD) (t : Fin cfg0.N) :
    (dats m 0 c).flushed 2 t = ((cfg0.win 2).blk t).view.read (Elt F) (out0_2 (V m c main_arg0) (V m c main_arg1)) := by
  show (cfg0.win 2).cut (grid0.coords t) ((dats m 0 c).after 2 t) = _
  rw [after0_2, block0, block1]
  funext j
  show out0_2 (V m c main_arg0) (V m c main_arg1) j
    = out0_2 (V m c main_arg0) (V m c main_arg1) (((cfg0.win 2).blk t).view.emb j)
  exact congrArg (out0_2 (V m c main_arg0) (V m c main_arg1)) (emb_out t j).symm

theorem mem_block (t : Fin cfg0.N) (i : S1x1.Idx) :
    i ∈ ((cfg0.win 2).blk t).view.set ↔ ∀ a : Fin 2, win0_2.index t a * S1x1.size a ≤ (i a).val
      ∧ (i a).val < win0_2.index t a * S1x1.size a + S1x1.size a := by
  show i ∈ ((View.whole main_v0).slice (win0_2.rect t)).set ↔ _
  rw [View.set_slice_whole, Rect.mem_set_unit]
  exact Iff.rfl

/-- The one block covers the output array. -/
theorem covered (i : S1x1.Idx) : ∃ t : Fin cfg0.N, (cfg0.win 2).flush t = true ∧ i ∈ ((cfg0.win 2).blk t).view.set := by
  refine ⟨t0_0, flush0_2 t0_0, ?_⟩
  rw [mem_block]
  obtain ⟨-, -, -, -, e0, e1⟩ := block_indices t0_0
  intro a
  match a with
  | ⟨0, _⟩ =>
    show win0_2.index t0_0 (0 : Fin 2) * 1 ≤ (i 0).val ∧ (i 0).val < win0_2.index t0_0 (0 : Fin 2) * 1 + 1
    have h : (i 0).val < 1 := (i 0).isLt
    omega
  | ⟨1, _⟩ =>
    show win0_2.index t0_0 (1 : Fin 2) * 1 ≤ (i 1).val ∧ (i 1).val < win0_2.index t0_0 (1 : Fin 2) * 1 + 1
    have h : (i 1).val < 1 := (i 1).isLt
    omega

/-- The output array after the region. -/
theorem final (c : Dev nD) : (dats m 0 c).arrAt 2 cfg0.N = out0_2 (V m c main_arg0) (V m c main_arg1) :=
  (dats m 0 c).arrAt_eq_of_cover 2 _ (fun t _ => flushed_eq m c t) covered

/-- The result buffer after the line that follows the region: the output array recast to a scalar. -/
theorem tail_eq (c : Dev nD) :
    Pipeline.afterTail₀ cfgs (dats m) 0 (V0 m) [hostOps1] c main_v1
      = shapeCast S_ (out0_2 (V m c main_arg0) (V m c main_arg1)) shapeCasts_S1x1_S_ := by
  unfold Pipeline.afterTail₀
  show StableHlo.after hostOps1 _ (Proc.devRef .tc main_v1) = _
  after_results
  have e := (Pipeline.withArrays_arr spec0 launch0.win.arr_inj c (V0 m c) (fun w => (dats m 0 c).arrAt w cfg0.N) 2).trans
    (final m c)
  funext i
  exact congrArg (fun A : S1x1.Idx → Elt F .f32 => shapeCast S_ A shapeCasts_S1x1_S_ i) e

/-- THE RUN: every weakly fair execution ends with the result buffer at the recast stored value of the argument
    arrays, and the arguments unchanged. -/
theorem run : θ_run defs (onTc (τ := τ) (main (F := F))) ⟨m, fun _ => 0, ρ⟩ fun r => ∀ c : Dev nD,
      r.2.mem ((c.tc : Thread nD τ).loc main_v1)
        = shapeCast S_ (k0_pay1 (k0_pay4 (m ((c.tc : Thread nD τ).loc main_arg0)) (m ((c.tc : Thread nD τ).loc main_arg1)))
            (k0_pay5 (m ((c.tc : Thread nD τ).loc main_arg0)) (m ((c.tc : Thread nD τ).loc main_arg1)))
            (k0_pay6 (m ((c.tc : Thread nD τ).loc main_arg0)) (m ((c.tc : Thread nD τ).loc main_arg1)))
            (k0_pay7 (m ((c.tc : Thread nD τ).loc main_arg0)) (m ((c.tc : Thread nD τ).loc main_arg1)))) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨(((h c).2 main_v1 (Pipeline.mem_restRefs_of main_v1 rfl (by decide))).trans (tail_eq m c)).trans
        (congrArg (fun A : S1x1.Idx → Elt F .f32 => shapeCast S_ A shapeCasts_S1x1_S_)
          (out_eq (V m c main_arg0) (V m c main_arg1))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.RunValue

end
-- ==== Proof.lean ====
/-
  A loss over pairwise distances: for each of the two halves of `d = pred − truth` (32 rows of 2048, cut at column
  1024) and each anchor column `i` of the half, the root of `∑_b ∑_j (d(b,j) − d(b,i))²`; the roots are summed over
  the anchors and the halves, and the total is divided by 64.

  The reference forms the 32 × 1024 × 1024 array of differences and reduces it. The kernel never forms it: it
  expands the square, `∑_b ∑_j d(b,j)² − 2·∑_b (∑_j d(b,j))·d(b,i) + 1024·∑_b d(b,i)²`, from row sums and column
  sums, and floors the combination at zero before the root. Over the reals the expansion is an identity and the floor
  does nothing, the left side being a sum of squares; on extended reals this needs every entry to be real, which is
  what the precondition gives. Both programs take the same root, the same sums over anchors and halves and the same
  quotient by the same word for 64, so the results agree once the per-anchor quantities do.

  The kernel's run, the reference's run and the reading of each at an index are in the modules imported below; here
  the five claims are assembled.
-/
import proofs.«162792_j47278999994715_2_alg».proof.Defs
import proofs.«162792_j47278999994715_2_alg».proof.Proof.Gen.Kernel
import proofs.«162792_j47278999994715_2_alg».proof.Proof.Gen.Kernel.Skeleton
import proofs.«162792_j47278999994715_2_alg».proof.Proof.Gen.Kernel.Launch
import proofs.«162792_j47278999994715_2_alg».proof.Proof.Gen.Kernel.Points
import proofs.«162792_j47278999994715_2_alg».proof.Proof.Gen.Kernel.Frame
import proofs.«162792_j47278999994715_2_alg».proof.Proof.Gen.KernelIdeal
import proofs.«162792_j47278999994715_2_alg».proof.Proof.Gen.KernelIdeal.Skeleton
import proofs.«162792_j47278999994715_2_alg».proof.Proof.Gen.KernelIdeal.Launch
import proofs.«162792_j47278999994715_2_alg».proof.Proof.Gen.KernelIdeal.Points
import proofs.«162792_j47278999994715_2_alg».proof.Proof.Gen.KernelIdeal.Frame
import proofs.«162792_j47278999994715_2_alg».proof.Proof.Gen.ReferenceIdeal
import proofs.«162792_j47278999994715_2_alg».proof.Proof.Gen.Pre_finite_inputs
import proofs.«162792_j47278999994715_2_alg».proof.Proof.Gen.ReferenceIdeal.Run
import proofs.«162792_j47278999994715_2_alg».proof.Proof.Gen.ReferenceIdeal.Read
import proofs.«162792_j47278999994715_2_alg».proof.Proof.PairwiseAlgebra
import proofs.«162792_j47278999994715_2_alg».proof.Proof.FiniteEntries
import proofs.«162792_j47278999994715_2_alg».proof.Proof.BodyValue
import proofs.«162792_j47278999994715_2_alg».proof.Proof.RefValue
import proofs.«162792_j47278999994715_2_alg».proof.Proof.KernelRun
import Idealize.ShloMosaic.Adequacy
import Idealize.ShloMosaic.Init

noncomputable section

namespace Cert.Proof

open Idealize.ShloMosaic Idealize.SL.Sem Idealize.ShloMosaic.ValueIdx Cert.PairwiseAlgebra

/-- A `[1, 1]` block recast to a scalar reads, at the scalar's one index, the block's one entry. -/
theorem scalar_of_block (X : FVec Ideal Cert.KernelIdeal.S1x1 .f32) (i : Cert.KernelIdeal.S_.Idx) :
    shapeCast Cert.KernelIdeal.S_ X Cert.KernelIdeal.Gen.shapeCasts_S1x1_S_ i = X (ix2 (0 : Fin 1) (0 : Fin 1)) :=
  shapeCast_apply X _ i (ix2 (0 : Fin 1) (0 : Fin 1)) (by
    have h1 : (Shape.rowMajor Cert.KernelIdeal.S1x1 (ix2 (0 : Fin 1) (0 : Fin 1))).val < 1 := (Shape.rowMajor _ _).isLt
    have h2 : (Shape.rowMajor Cert.KernelIdeal.S_ i).val < 1 := (Shape.rowMajor _ _).isLt
    omega)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the ideal values the kernel's result is the expanded form of the loss of its two arguments and the reference's
    the entry-by-entry form of the same arguments; the arguments being real, the two forms are one number. -/
theorem algebraic : Cert.algebraic_KernelIdeal_ReferenceIdeal := by
  intro m ρ m' ρ' hpre hagree
  refine ⟨fun c _ => kernelLoss (Ideal.ofBits .f32 0x40000000#32) (Ideal.ofBits .f32 0x44800000#32)
      (Ideal.ofBits .f32 0x00000000#32) (Ideal.ofBits .f32 0x42800000#32)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.RunValue.run (F := Ideal) m ρ)
    funext i
    exact (scalar_of_block _ i).trans (Cert.KernelIdeal.BodyValue.body_apply _ _)
  · refine (θ_run Cert.ReferenceIdeal.defs _ _).mono (fun r h c => ⟨(h c).1.trans ?_, (h c).2⟩)
      (Cert.ReferenceIdeal.Value.run (F := Ideal) m' ρ')
    rw [(hagree c).1, (hagree c).2, Cert.ReferenceIdeal.Read.val_main_v22_eq]
    funext i
    rw [Cert.ReferenceIdeal.RefValue.result_apply]
    obtain ⟨h0, h1⟩ := Cert.FiniteEntries.real_of_pre _ _ (hpre c)
    exact (kernelLoss_eq_refLoss _ _ h0 h1 _ _ _ _ _ ofBits_two ofBits_1024 ofBits_zero ofBits_zero).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
